-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x64 : Shape := ⟨2, ![32, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x32 .f32) (main_arg10 : FVec F S32 .f32) (main_arg11 : FVec F S32x64 .f32) (main_arg12 : FVec F S64 .f32) (main_v33 : IVec S_ 1) : IVec S_ 1 :=
  let main_v34 : FVec F S128x32 .f32 := Host.absf main_arg9
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x64 .f32 := Host.absf main_arg11
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x32 .f32) (main_arg10 : FVec F S32 .f32) (main_arg11 : FVec F S32x64 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S10000x128 .f32) (main_arg1 : IVec S2x320000 32) (main_arg2 : IVec S10000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x32 .f32) (main_arg10 : FVec F S32 .f32) (main_arg11 : FVec F S32x64 .f32) (main_arg12 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x64 : Shape := ⟨2, ![32, 64]⟩
abbrev S64 : Shape := ⟨1, ![64]⟩
abbrev S1x320000 : Shape := ⟨2, ![1, 320000]⟩
abbrev S320000 : Shape := ⟨1, ![320000]⟩
abbrev S1x128 : Shape := ⟨2, ![1, 128]⟩
abbrev S_ : Shape := ⟨0, ![]⟩
abbrev S330000 : Shape := ⟨1, ![330000]⟩
abbrev S330000x1 : Shape := ⟨2, ![330000, 1]⟩
abbrev S330000x128 : Shape := ⟨2, ![330000, 128]⟩
abbrev S64x128 : Shape := ⟨2, ![64, 128]⟩
abbrev S10000x1 : Shape := ⟨2, ![10000, 1]⟩
abbrev S64x1 : Shape := ⟨2, ![64, 1]⟩
abbrev S64x32 : Shape := ⟨2, ![64, 32]⟩
abbrev S1x32 : Shape := ⟨2, ![1, 32]⟩
abbrev S64x64 : Shape := ⟨2, ![64, 64]⟩
abbrev S1x64 : Shape := ⟨2, ![1, 64]⟩

abbrev nBuf : Space → Nat
  | .hbm => 220
  | .vmem => 2
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x32, .f32⟩
  | 10 => ⟨S32, .f32⟩
  | 11 => ⟨S32x64, .f32⟩
  | 12 => ⟨S64, .f32⟩
  | 13 => ⟨S1x320000, .i32⟩
  | 14 => ⟨S320000, .i32⟩
  | 15 => ⟨S1x320000, .i32⟩
  | 16 => ⟨S320000, .i32⟩
  | 17 => ⟨S10000x128, .f32⟩
  | 18 => ⟨S1x128, .f32⟩
  | 19 => ⟨S10000x128, .f32⟩
  | 20 => ⟨S10000x128, .f32⟩
  | 21 => ⟨S_, .f32⟩
  | 22 => ⟨S10000x128, .f32⟩
  | 23 => ⟨S10000x128, .i1⟩
  | 24 => ⟨S_, .f32⟩
  | 25 => ⟨S10000x128, .f32⟩
  | 26 => ⟨S10000x128, .f32⟩
  | 27 => ⟨S10000x128, .f32⟩
  | 28 => ⟨S10000x128, .f32⟩
  | 29 => ⟨S10000, .i32⟩
  | 30 => ⟨S330000, .i32⟩
  | 31 => ⟨S330000, .i32⟩
  | 32 => ⟨S_, .f32⟩
  | 33 => ⟨S10000, .f32⟩
  | 34 => ⟨S_, .i32⟩
  | 35 => ⟨S330000, .i32⟩
  | 36 => ⟨S330000, .i1⟩
  | 37 => ⟨S_, .i32⟩
  | 38 => ⟨S330000, .i32⟩
  | 39 => ⟨S330000, .i32⟩
  | 40 => ⟨S330000, .i32⟩
  | 41 => ⟨S330000x1, .i32⟩
  | 42 => ⟨S_, .f32⟩
  | 43 => ⟨S330000, .f32⟩
  | 44 => ⟨S10000, .f32⟩
  | 45 => ⟨S_, .f32⟩
  | 46 => ⟨S10000, .f32⟩
  | 47 => ⟨S10000, .i1⟩
  | 48 => ⟨S10000, .f32⟩
  | 49 => ⟨S_, .f32⟩
  | 50 => ⟨S10000, .f32⟩
  | 51 => ⟨S10000, .f32⟩
  | 52 => ⟨S_, .f32⟩
  | 53 => ⟨S_, .f32⟩
  | 54 => ⟨S10000, .f32⟩
  | 55 => ⟨S10000, .f32⟩
  | 56 => ⟨S_, .i32⟩
  | 57 => ⟨S330000, .i32⟩
  | 58 => ⟨S330000, .i1⟩
  | 59 => ⟨S_, .i32⟩
  | 60 => ⟨S330000, .i32⟩
  | 61 => ⟨S330000, .i32⟩
  | 62 => ⟨S330000, .i32⟩
  | 63 => ⟨S330000x1, .i32⟩
  | 64 => ⟨S330000, .f32⟩
  | 65 => ⟨S_, .i32⟩
  | 66 => ⟨S330000, .i32⟩
  | 67 => ⟨S330000, .i1⟩
  | 68 => ⟨S_, .i32⟩
  | 69 => ⟨S330000, .i32⟩
  | 70 => ⟨S330000, .i32⟩
  | 71 => ⟨S330000, .i32⟩
  | 72 => ⟨S330000x1, .i32⟩
  | 73 => ⟨S330000, .f32⟩
  | 74 => ⟨S330000, .f32⟩
  | 75 => ⟨S_, .i32⟩
  | 76 => ⟨S330000, .i32⟩
  | 77 => ⟨S330000, .i1⟩
  | 78 => ⟨S_, .i32⟩
  | 79 => ⟨S330000, .i32⟩
  | 80 => ⟨S330000, .i32⟩
  | 81 => ⟨S330000, .i32⟩
  | 82 => ⟨S330000x1, .i32⟩
  | 83 => ⟨S330000x128, .f32⟩
  | 84 => ⟨S330000x1, .f32⟩
  | 85 => ⟨S330000x128, .f32⟩
  | 86 => ⟨S330000x128, .f32⟩
  | 87 => ⟨S_, .f32⟩
  | 88 => ⟨S10000x128, .f32⟩
  | 89 => ⟨S_, .i32⟩
  | 90 => ⟨S330000, .i32⟩
  | 91 => ⟨S330000, .i1⟩
  | 92 => ⟨S_, .i32⟩
  | 93 => ⟨S330000, .i32⟩
  | 94 => ⟨S330000, .i32⟩
  | 95 => ⟨S330000, .i32⟩
  | 96 => ⟨S330000x1, .i32⟩
  | 97 => ⟨S10000x128, .f32⟩
  | 98 => ⟨S1x128, .f32⟩
  | 99 => ⟨S10000x128, .f32⟩
  | 100 => ⟨S10000x128, .f32⟩
  | 101 => ⟨S_, .f32⟩
  | 102 => ⟨S10000x128, .f32⟩
  | 103 => ⟨S10000x128, .i1⟩
  | 104 => ⟨S_, .f32⟩
  | 105 => ⟨S10000x128, .f32⟩
  | 106 => ⟨S10000x128, .f32⟩
  | 107 => ⟨S10000x128, .f32⟩
  | 108 => ⟨S10000x128, .f32⟩
  | 109 => ⟨S10000, .i32⟩
  | 110 => ⟨S330000, .i32⟩
  | 111 => ⟨S330000, .i32⟩
  | 112 => ⟨S_, .f32⟩
  | 113 => ⟨S10000, .f32⟩
  | 114 => ⟨S_, .i32⟩
  | 115 => ⟨S330000, .i32⟩
  | 116 => ⟨S330000, .i1⟩
  | 117 => ⟨S_, .i32⟩
  | 118 => ⟨S330000, .i32⟩
  | 119 => ⟨S330000, .i32⟩
  | 120 => ⟨S330000, .i32⟩
  | 121 => ⟨S330000x1, .i32⟩
  | 122 => ⟨S_, .f32⟩
  | 123 => ⟨S330000, .f32⟩
  | 124 => ⟨S10000, .f32⟩
  | 125 => ⟨S_, .f32⟩
  | 126 => ⟨S10000, .f32⟩
  | 127 => ⟨S10000, .i1⟩
  | _ => ⟨S10000x128, .f32⟩

abbrev hbmTy0_1 (i : Nat) : BufTy := match i % 128 with
  | 0 => ⟨S10000, .f32⟩
  | 1 => ⟨S_, .f32⟩
  | 2 => ⟨S10000, .f32⟩
  | 3 => ⟨S10000, .f32⟩
  | 4 => ⟨S_, .f32⟩
  | 5 => ⟨S_, .f32⟩
  | 6 => ⟨S10000, .f32⟩
  | 7 => ⟨S10000, .f32⟩
  | 8 => ⟨S_, .i32⟩
  | 9 => ⟨S330000, .i32⟩
  | 10 => ⟨S330000, .i1⟩
  | 11 => ⟨S_, .i32⟩
  | 12 => ⟨S330000, .i32⟩
  | 13 => ⟨S330000, .i32⟩
  | 14 => ⟨S330000, .i32⟩
  | 15 => ⟨S330000x1, .i32⟩
  | 16 => ⟨S330000, .f32⟩
  | 17 => ⟨S_, .i32⟩
  | 18 => ⟨S330000, .i32⟩
  | 19 => ⟨S330000, .i1⟩
  | 20 => ⟨S_, .i32⟩
  | 21 => ⟨S330000, .i32⟩
  | 22 => ⟨S330000, .i32⟩
  | 23 => ⟨S330000, .i32⟩
  | 24 => ⟨S330000x1, .i32⟩
  | 25 => ⟨S330000, .f32⟩
  | 26 => ⟨S330000, .f32⟩
  | 27 => ⟨S_, .i32⟩
  | 28 => ⟨S330000, .i32⟩
  | 29 => ⟨S330000, .i1⟩
  | 30 => ⟨S_, .i32⟩
  | 31 => ⟨S330000, .i32⟩
  | 32 => ⟨S330000, .i32⟩
  | 33 => ⟨S330000, .i32⟩
  | 34 => ⟨S330000x1, .i32⟩
  | 35 => ⟨S330000x128, .f32⟩
  | 36 => ⟨S330000x1, .f32⟩
  | 37 => ⟨S330000x128, .f32⟩
  | 38 => ⟨S330000x128, .f32⟩
  | 39 => ⟨S_, .f32⟩
  | 40 => ⟨S10000x128, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S10000x128, .f32⟩
  | 50 => ⟨S1x128, .f32⟩
  | 51 => ⟨S10000x128, .f32⟩
  | 52 => ⟨S10000x128, .f32⟩
  | 53 => ⟨S_, .f32⟩
  | 54 => ⟨S10000x128, .f32⟩
  | 55 => ⟨S10000x128, .i1⟩
  | 56 => ⟨S_, .f32⟩
  | 57 => ⟨S10000x128, .f32⟩
  | 58 => ⟨S10000x128, .f32⟩
  | 59 => ⟨S10000x128, .f32⟩
  | 60 => ⟨S_, .f32⟩
  | 61 => ⟨S64x128, .f32⟩
  | 62 => ⟨S10000x1, .i32⟩
  | 63 => ⟨S64x128, .f32⟩
  | 64 => ⟨S_, .f32⟩
  | 65 => ⟨S10000, .f32⟩
  | 66 => ⟨S_, .f32⟩
  | 67 => ⟨S64, .f32⟩
  | 68 => ⟨S10000x1, .i32⟩
  | 69 => ⟨S64, .f32⟩
  | 70 => ⟨S_, .f32⟩
  | 71 => ⟨S64, .f32⟩
  | 72 => ⟨S64, .f32⟩
  | 73 => ⟨S64x1, .f32⟩
  | 74 => ⟨S64x128, .f32⟩
  | 75 => ⟨S64x128, .f32⟩
  | 76 => ⟨S64x32, .f32⟩
  | 77 => ⟨S1x32, .f32⟩
  | 78 => ⟨S64x32, .f32⟩
  | 79 => ⟨S64x32, .f32⟩
  | 80 => ⟨S_, .f32⟩
  | 81 => ⟨S64x32, .f32⟩
  | 82 => ⟨S64x32, .i1⟩
  | 83 => ⟨S_, .f32⟩
  | 84 => ⟨S64x32, .f32⟩
  | 85 => ⟨S64x32, .f32⟩
  | 86 => ⟨S64x32, .f32⟩
  | 87 => ⟨S64x64, .f32⟩
  | 88 => ⟨S1x64, .f32⟩
  | 89 => ⟨S64x64, .f32⟩
  | 90 => ⟨S64x64, .f32⟩
  | 91 => ⟨S64x64, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S64x64, .f32⟩
  | .local _ .vmem, ⟨1, _⟩ => ⟨S64x64, .f32⟩
  | _, _ => ⟨S10000x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_call1_v0 : Ref sig .tc := ⟨.hbm, 53, rfl⟩
abbrev main_call1_v1 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_c_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_c_14 : Ref sig .tc := ⟨.hbm, 89, rfl⟩
abbrev main_v58 : Ref sig .tc := ⟨.hbm, 90, rfl⟩
abbrev main_v59 : Ref sig .tc := ⟨.hbm, 91, rfl⟩
abbrev main_c_15 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_16 : Ref sig .tc := ⟨.hbm, 101, rfl⟩
abbrev main_v68 : Ref sig .tc := ⟨.hbm, 102, rfl⟩
abbrev main_v69 : Ref sig .tc := ⟨.hbm, 103, rfl⟩
abbrev main_cst_17 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_18 : Ref sig .tc := ⟨.hbm, 112, rfl⟩
abbrev main_v77 : Ref sig .tc := ⟨.hbm, 113, rfl⟩
abbrev main_c_19 : Ref sig .tc := ⟨.hbm, 114, rfl⟩
abbrev main_v78 : Ref sig .tc := ⟨.hbm, 115, rfl⟩
abbrev main_v79 : Ref sig .tc := ⟨.hbm, 116, rfl⟩
abbrev main_c_20 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_21 : Ref sig .tc := ⟨.hbm, 122, rfl⟩
abbrev main_v84 : Ref sig .tc := ⟨.hbm, 123, rfl⟩
abbrev main_v85 : Ref sig .tc := ⟨.hbm, 124, rfl⟩
abbrev main_cst_22 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_23 : Ref sig .tc := ⟨.hbm, 129, rfl⟩
abbrev main_v89 : Ref sig .tc := ⟨.hbm, 130, rfl⟩
abbrev main_v90 : Ref sig .tc := ⟨.hbm, 131, rfl⟩
abbrev main_cst_24 : Ref sig .tc := ⟨.hbm, 132, rfl⟩
abbrev main_call3_v0 : Ref sig .tc := ⟨.hbm, 133, rfl⟩
abbrev main_call3_v1 : Ref sig .tc := ⟨.hbm, 134, rfl⟩
abbrev main_v91 : Ref sig .tc := ⟨.hbm, 135, rfl⟩
abbrev main_c_25 : Ref sig .tc := ⟨.hbm, 136, rfl⟩
abbrev main_v92 : Ref sig .tc := ⟨.hbm, 137, rfl⟩
abbrev main_v93 : Ref sig .tc := ⟨.hbm, 138, rfl⟩
abbrev main_c_26 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_27 : Ref sig .tc := ⟨.hbm, 145, rfl⟩
abbrev main_v99 : Ref sig .tc := ⟨.hbm, 146, rfl⟩
abbrev main_v100 : Ref sig .tc := ⟨.hbm, 147, rfl⟩
abbrev main_c_28 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_c_29 : Ref sig .tc := ⟨.hbm, 155, rfl⟩
abbrev main_v107 : Ref sig .tc := ⟨.hbm, 156, rfl⟩
abbrev main_v108 : Ref sig .tc := ⟨.hbm, 157, rfl⟩
abbrev main_c_30 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_31 : Ref sig .tc := ⟨.hbm, 167, rfl⟩
abbrev main_v117 : Ref sig .tc := ⟨.hbm, 168, rfl⟩
abbrev main_c_32 : Ref sig .tc := ⟨.hbm, 169, rfl⟩
abbrev main_v118 : Ref sig .tc := ⟨.hbm, 170, rfl⟩
abbrev main_v119 : Ref sig .tc := ⟨.hbm, 171, rfl⟩
abbrev main_c_33 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_34 : Ref sig .tc := ⟨.hbm, 181, rfl⟩
abbrev main_v128 : Ref sig .tc := ⟨.hbm, 182, rfl⟩
abbrev main_v129 : Ref sig .tc := ⟨.hbm, 183, rfl⟩
abbrev main_cst_35 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_36 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_37 : Ref sig .tc := ⟨.hbm, 192, rfl⟩
abbrev main_v136 : Ref sig .tc := ⟨.hbm, 193, rfl⟩
abbrev main_cst_38 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_cst_39 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_cst_40 : Ref sig .tc := ⟨.hbm, 208, rfl⟩
abbrev main_v149 : Ref sig .tc := ⟨.hbm, 209, rfl⟩
abbrev main_v150 : Ref sig .tc := ⟨.hbm, 210, rfl⟩
abbrev main_cst_41 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  concatenates_S320000_S10000_S330000_d0 : Shape.Concatenates [S320000, S10000] S330000 0
  bcast_S_S10000 : S_.BroadcastsInDim S10000 (![] : Fin 0 → Fin S10000.rank)
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  bcast_S_S64x128 : S_.BroadcastsInDim S64x128 (![] : Fin 0 → Fin S64x128.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  dot_S10000x128_S128x128_S10000x128_1_0_0_1_n_n_wf : DotDims.WF S10000x128 S128x128 S10000x128 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  scatter_S64x128_S10000x1_S10000x128_1_0_0_1_wf : ScatterDims.WF S64x128 S10000x1 S10000x128 [1] [0] [0] 1
  scatter_S64_S10000x1_S10000_n_0_0_1_wf : ScatterDims.WF S64 S10000x1 S10000 [] [0] [0] 1
  dot_S64x128_S128x32_S64x32_1_0_0_1_n_n_wf : DotDims.WF S64x128 S128x32 S64x32 [1] [0] [0] [1] [] []
  dot_S64x32_S32x64_S64x64_1_0_0_1_n_n_wf : DotDims.WF S64x32 S32x64 S64x64 [1] [0] [0] [1] [] []
  hstage0_0 : ∀ j, (stage0_0 j).IsWhole
  hstage0_1 : ∀ j, (stage0_1 j).IsWhole

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf

abbrev win0_0 : Pipeline.Window sig grid0 :=
  Pipeline.Window.whole (Memref.whole main_v157) false false (stage0_0 0) (sem0_0 0) (Memref.isWhole_whole _) (hstage0_0 0)

abbrev win0_1 : Pipeline.Window sig grid0 :=
  Pipeline.Window.whole (Memref.whole main_v158) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x64 : Shape := ⟨2, ![32, 64]⟩
abbrev S64 : Shape := ⟨1, ![64]⟩
abbrev S1x320000 : Shape := ⟨2, ![1, 320000]⟩
abbrev S320000 : Shape := ⟨1, ![320000]⟩
abbrev S1x128 : Shape := ⟨2, ![1, 128]⟩
abbrev S_ : Shape := ⟨0, ![]⟩
abbrev S330000 : Shape := ⟨1, ![330000]⟩
abbrev S330000x1 : Shape := ⟨2, ![330000, 1]⟩
abbrev S330000x128 : Shape := ⟨2, ![330000, 128]⟩
abbrev S64x128 : Shape := ⟨2, ![64, 128]⟩
abbrev S10000x1 : Shape := ⟨2, ![10000, 1]⟩
abbrev S64x1 : Shape := ⟨2, ![64, 1]⟩
abbrev S64x32 : Shape := ⟨2, ![64, 32]⟩
abbrev S1x32 : Shape := ⟨2, ![1, 32]⟩
abbrev S64x64 : Shape := ⟨2, ![64, 64]⟩
abbrev S1x64 : Shape := ⟨2, ![1, 64]⟩

abbrev nBuf : Space → Nat
  | .hbm => 219
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x32, .f32⟩
  | 10 => ⟨S32, .f32⟩
  | 11 => ⟨S32x64, .f32⟩
  | 12 => ⟨S64, .f32⟩
  | 13 => ⟨S1x320000, .i32⟩
  | 14 => ⟨S320000, .i32⟩
  | 15 => ⟨S1x320000, .i32⟩
  | 16 => ⟨S320000, .i32⟩
  | 17 => ⟨S10000x128, .f32⟩
  | 18 => ⟨S1x128, .f32⟩
  | 19 => ⟨S10000x128, .f32⟩
  | 20 => ⟨S10000x128, .f32⟩
  | 21 => ⟨S_, .f32⟩
  | 22 => ⟨S10000x128, .f32⟩
  | 23 => ⟨S10000x128, .i1⟩
  | 24 => ⟨S_, .f32⟩
  | 25 => ⟨S10000x128, .f32⟩
  | 26 => ⟨S10000x128, .f32⟩
  | 27 => ⟨S10000x128, .f32⟩
  | 28 => ⟨S10000x128, .f32⟩
  | 29 => ⟨S10000, .i32⟩
  | 30 => ⟨S330000, .i32⟩
  | 31 => ⟨S330000, .i32⟩
  | 32 => ⟨S_, .f32⟩
  | 33 => ⟨S10000, .f32⟩
  | 34 => ⟨S_, .i32⟩
  | 35 => ⟨S330000, .i32⟩
  | 36 => ⟨S330000, .i1⟩
  | 37 => ⟨S_, .i32⟩
  | 38 => ⟨S330000, .i32⟩
  | 39 => ⟨S330000, .i32⟩
  | 40 => ⟨S330000, .i32⟩
  | 41 => ⟨S330000x1, .i32⟩
  | 42 => ⟨S_, .f32⟩
  | 43 => ⟨S330000, .f32⟩
  | 44 => ⟨S10000, .f32⟩
  | 45 => ⟨S_, .f32⟩
  | 46 => ⟨S10000, .f32⟩
  | 47 => ⟨S10000, .i1⟩
  | 48 => ⟨S10000, .f32⟩
  | 49 => ⟨S_, .f32⟩
  | 50 => ⟨S10000, .f32⟩
  | 51 => ⟨S10000, .f32⟩
  | 52 => ⟨S_, .f32⟩
  | 53 => ⟨S_, .f32⟩
  | 54 => ⟨S10000, .f32⟩
  | 55 => ⟨S10000, .f32⟩
  | 56 => ⟨S_, .i32⟩
  | 57 => ⟨S330000, .i32⟩
  | 58 => ⟨S330000, .i1⟩
  | 59 => ⟨S_, .i32⟩
  | 60 => ⟨S330000, .i32⟩
  | 61 => ⟨S330000, .i32⟩
  | 62 => ⟨S330000, .i32⟩
  | 63 => ⟨S330000x1, .i32⟩
  | 64 => ⟨S330000, .f32⟩
  | 65 => ⟨S_, .i32⟩
  | 66 => ⟨S330000, .i32⟩
  | 67 => ⟨S330000, .i1⟩
  | 68 => ⟨S_, .i32⟩
  | 69 => ⟨S330000, .i32⟩
  | 70 => ⟨S330000, .i32⟩
  | 71 => ⟨S330000, .i32⟩
  | 72 => ⟨S330000x1, .i32⟩
  | 73 => ⟨S330000, .f32⟩
  | 74 => ⟨S330000, .f32⟩
  | 75 => ⟨S_, .i32⟩
  | 76 => ⟨S330000, .i32⟩
  | 77 => ⟨S330000, .i1⟩
  | 78 => ⟨S_, .i32⟩
  | 79 => ⟨S330000, .i32⟩
  | 80 => ⟨S330000, .i32⟩
  | 81 => ⟨S330000, .i32⟩
  | 82 => ⟨S330000x1, .i32⟩
  | 83 => ⟨S330000x128, .f32⟩
  | 84 => ⟨S330000x1, .f32⟩
  | 85 => ⟨S330000x128, .f32⟩
  | 86 => ⟨S330000x128, .f32⟩
  | 87 => ⟨S_, .f32⟩
  | 88 => ⟨S10000x128, .f32⟩
  | 89 => ⟨S_, .i32⟩
  | 90 => ⟨S330000, .i32⟩
  | 91 => ⟨S330000, .i1⟩
  | 92 => ⟨S_, .i32⟩
  | 93 => ⟨S330000, .i32⟩
  | 94 => ⟨S330000, .i32⟩
  | 95 => ⟨S330000, .i32⟩
  | 96 => ⟨S330000x1, .i32⟩
  | 97 => ⟨S10000x128, .f32⟩
  | 98 => ⟨S1x128, .f32⟩
  | 99 => ⟨S10000x128, .f32⟩
  | 100 => ⟨S10000x128, .f32⟩
  | 101 => ⟨S_, .f32⟩
  | 102 => ⟨S10000x128, .f32⟩
  | 103 => ⟨S10000x128, .i1⟩
  | 104 => ⟨S_, .f32⟩
  | 105 => ⟨S10000x128, .f32⟩
  | 106 => ⟨S10000x128, .f32⟩
  | 107 => ⟨S10000x128, .f32⟩
  | 108 => ⟨S10000x128, .f32⟩
  | 109 => ⟨S10000, .i32⟩
  | 110 => ⟨S330000, .i32⟩
  | 111 => ⟨S330000, .i32⟩
  | 112 => ⟨S_, .f32⟩
  | 113 => ⟨S10000, .f32⟩
  | 114 => ⟨S_, .i32⟩
  | 115 => ⟨S330000, .i32⟩
  | 116 => ⟨S330000, .i1⟩
  | 117 => ⟨S_, .i32⟩
  | 118 => ⟨S330000, .i32⟩
  | 119 => ⟨S330000, .i32⟩
  | 120 => ⟨S330000, .i32⟩
  | 121 => ⟨S330000x1, .i32⟩
  | 122 => ⟨S_, .f32⟩
  | 123 => ⟨S330000, .f32⟩
  | 124 => ⟨S10000, .f32⟩
  | 125 => ⟨S_, .f32⟩
  | 126 => ⟨S10000, .f32⟩
  | 127 => ⟨S10000, .i1⟩
  | _ => ⟨S10000x128, .f32⟩

abbrev hbmTy0_1 (i : Nat) : BufTy := match i % 128 with
  | 0 => ⟨S10000, .f32⟩
  | 1 => ⟨S_, .f32⟩
  | 2 => ⟨S10000, .f32⟩
  | 3 => ⟨S10000, .f32⟩
  | 4 => ⟨S_, .f32⟩
  | 5 => ⟨S_, .f32⟩
  | 6 => ⟨S10000, .f32⟩
  | 7 => ⟨S10000, .f32⟩
  | 8 => ⟨S_, .i32⟩
  | 9 => ⟨S330000, .i32⟩
  | 10 => ⟨S330000, .i1⟩
  | 11 => ⟨S_, .i32⟩
  | 12 => ⟨S330000, .i32⟩
  | 13 => ⟨S330000, .i32⟩
  | 14 => ⟨S330000, .i32⟩
  | 15 => ⟨S330000x1, .i32⟩
  | 16 => ⟨S330000, .f32⟩
  | 17 => ⟨S_, .i32⟩
  | 18 => ⟨S330000, .i32⟩
  | 19 => ⟨S330000, .i1⟩
  | 20 => ⟨S_, .i32⟩
  | 21 => ⟨S330000, .i32⟩
  | 22 => ⟨S330000, .i32⟩
  | 23 => ⟨S330000, .i32⟩
  | 24 => ⟨S330000x1, .i32⟩
  | 25 => ⟨S330000, .f32⟩
  | 26 => ⟨S330000, .f32⟩
  | 27 => ⟨S_, .i32⟩
  | 28 => ⟨S330000, .i32⟩
  | 29 => ⟨S330000, .i1⟩
  | 30 => ⟨S_, .i32⟩
  | 31 => ⟨S330000, .i32⟩
  | 32 => ⟨S330000, .i32⟩
  | 33 => ⟨S330000, .i32⟩
  | 34 => ⟨S330000x1, .i32⟩
  | 35 => ⟨S330000x128, .f32⟩
  | 36 => ⟨S330000x1, .f32⟩
  | 37 => ⟨S330000x128, .f32⟩
  | 38 => ⟨S330000x128, .f32⟩
  | 39 => ⟨S_, .f32⟩
  | 40 => ⟨S10000x128, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S10000x128, .f32⟩
  | 50 => ⟨S1x128, .f32⟩
  | 51 => ⟨S10000x128, .f32⟩
  | 52 => ⟨S10000x128, .f32⟩
  | 53 => ⟨S_, .f32⟩
  | 54 => ⟨S10000x128, .f32⟩
  | 55 => ⟨S10000x128, .i1⟩
  | 56 => ⟨S_, .f32⟩
  | 57 => ⟨S10000x128, .f32⟩
  | 58 => ⟨S10000x128, .f32⟩
  | 59 => ⟨S10000x128, .f32⟩
  | 60 => ⟨S_, .f32⟩
  | 61 => ⟨S64x128, .f32⟩
  | 62 => ⟨S10000x1, .i32⟩
  | 63 => ⟨S64x128, .f32⟩
  | 64 => ⟨S_, .f32⟩
  | 65 => ⟨S10000, .f32⟩
  | 66 => ⟨S_, .f32⟩
  | 67 => ⟨S64, .f32⟩
  | 68 => ⟨S10000x1, .i32⟩
  | 69 => ⟨S64, .f32⟩
  | 70 => ⟨S_, .f32⟩
  | 71 => ⟨S64, .f32⟩
  | 72 => ⟨S64, .f32⟩
  | 73 => ⟨S64x1, .f32⟩
  | 74 => ⟨S64x128, .f32⟩
  | 75 => ⟨S64x128, .f32⟩
  | 76 => ⟨S64x32, .f32⟩
  | 77 => ⟨S1x32, .f32⟩
  | 78 => ⟨S64x32, .f32⟩
  | 79 => ⟨S64x32, .f32⟩
  | 80 => ⟨S_, .f32⟩
  | 81 => ⟨S64x32, .f32⟩
  | 82 => ⟨S64x32, .i1⟩
  | 83 => ⟨S_, .f32⟩
  | 84 => ⟨S64x32, .f32⟩
  | 85 => ⟨S64x32, .f32⟩
  | 86 => ⟨S64x32, .f32⟩
  | 87 => ⟨S64x64, .f32⟩
  | 88 => ⟨S1x64, .f32⟩
  | 89 => ⟨S64x64, .f32⟩
  | 90 => ⟨S64x64, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_call1_v0 : Ref sig .tc := ⟨.hbm, 53, rfl⟩
abbrev main_call1_v1 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_c_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_c_14 : Ref sig .tc := ⟨.hbm, 89, rfl⟩
abbrev main_v58 : Ref sig .tc := ⟨.hbm, 90, rfl⟩
abbrev main_v59 : Ref sig .tc := ⟨.hbm, 91, rfl⟩
abbrev main_c_15 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_16 : Ref sig .tc := ⟨.hbm, 101, rfl⟩
abbrev main_v68 : Ref sig .tc := ⟨.hbm, 102, rfl⟩
abbrev main_v69 : Ref sig .tc := ⟨.hbm, 103, rfl⟩
abbrev main_cst_17 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_18 : Ref sig .tc := ⟨.hbm, 112, rfl⟩
abbrev main_v77 : Ref sig .tc := ⟨.hbm, 113, rfl⟩
abbrev main_c_19 : Ref sig .tc := ⟨.hbm, 114, rfl⟩
abbrev main_v78 : Ref sig .tc := ⟨.hbm, 115, rfl⟩
abbrev main_v79 : Ref sig .tc := ⟨.hbm, 116, rfl⟩
abbrev main_c_20 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_21 : Ref sig .tc := ⟨.hbm, 122, rfl⟩
abbrev main_v84 : Ref sig .tc := ⟨.hbm, 123, rfl⟩
abbrev main_v85 : Ref sig .tc := ⟨.hbm, 124, rfl⟩
abbrev main_cst_22 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_23 : Ref sig .tc := ⟨.hbm, 129, rfl⟩
abbrev main_v89 : Ref sig .tc := ⟨.hbm, 130, rfl⟩
abbrev main_v90 : Ref sig .tc := ⟨.hbm, 131, rfl⟩
abbrev main_cst_24 : Ref sig .tc := ⟨.hbm, 132, rfl⟩
abbrev main_call3_v0 : Ref sig .tc := ⟨.hbm, 133, rfl⟩
abbrev main_call3_v1 : Ref sig .tc := ⟨.hbm, 134, rfl⟩
abbrev main_v91 : Ref sig .tc := ⟨.hbm, 135, rfl⟩
abbrev main_c_25 : Ref sig .tc := ⟨.hbm, 136, rfl⟩
abbrev main_v92 : Ref sig .tc := ⟨.hbm, 137, rfl⟩
abbrev main_v93 : Ref sig .tc := ⟨.hbm, 138, rfl⟩
abbrev main_c_26 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_27 : Ref sig .tc := ⟨.hbm, 145, rfl⟩
abbrev main_v99 : Ref sig .tc := ⟨.hbm, 146, rfl⟩
abbrev main_v100 : Ref sig .tc := ⟨.hbm, 147, rfl⟩
abbrev main_c_28 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_c_29 : Ref sig .tc := ⟨.hbm, 155, rfl⟩
abbrev main_v107 : Ref sig .tc := ⟨.hbm, 156, rfl⟩
abbrev main_v108 : Ref sig .tc := ⟨.hbm, 157, rfl⟩
abbrev main_c_30 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_31 : Ref sig .tc := ⟨.hbm, 167, rfl⟩
abbrev main_v117 : Ref sig .tc := ⟨.hbm, 168, rfl⟩
abbrev main_c_32 : Ref sig .tc := ⟨.hbm, 169, rfl⟩
abbrev main_v118 : Ref sig .tc := ⟨.hbm, 170, rfl⟩
abbrev main_v119 : Ref sig .tc := ⟨.hbm, 171, rfl⟩
abbrev main_c_33 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_34 : Ref sig .tc := ⟨.hbm, 181, rfl⟩
abbrev main_v128 : Ref sig .tc := ⟨.hbm, 182, rfl⟩
abbrev main_v129 : Ref sig .tc := ⟨.hbm, 183, rfl⟩
abbrev main_cst_35 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_36 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_37 : Ref sig .tc := ⟨.hbm, 192, rfl⟩
abbrev main_v136 : Ref sig .tc := ⟨.hbm, 193, rfl⟩
abbrev main_cst_38 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_cst_39 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_cst_40 : Ref sig .tc := ⟨.hbm, 208, rfl⟩
abbrev main_v149 : Ref sig .tc := ⟨.hbm, 209, rfl⟩
abbrev main_v150 : Ref sig .tc := ⟨.hbm, 210, rfl⟩
abbrev main_cst_41 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  concatenates_S320000_S10000_S330000_d0 : Shape.Concatenates [S320000, S10000] S330000 0
  bcast_S_S10000 : S_.BroadcastsInDim S10000 (![] : Fin 0 → Fin S10000.rank)
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  bcast_S_S64x128 : S_.BroadcastsInDim S64x128 (![] : Fin 0 → Fin S64x128.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  dot_S10000x128_S128x128_S10000x128_1_0_0_1_n_n_wf : DotDims.WF S10000x128 S128x128 S10000x128 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  scatter_S64x128_S10000x1_S10000x128_1_0_0_1_wf : ScatterDims.WF S64x128 S10000x1 S10000x128 [1] [0] [0] 1
  scatter_S64_S10000x1_S10000_n_0_0_1_wf : ScatterDims.WF S64 S10000x1 S10000 [] [0] [0] 1
  dot_S64x128_S128x32_S64x32_1_0_0_1_n_n_wf : DotDims.WF S64x128 S128x32 S64x32 [1] [0] [0] [1] [] []
  dot_S64x32_S32x64_S64x64_1_0_0_1_n_n_wf : DotDims.WF S64x32 S32x64 S64x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf

class Facts : Prop extends Facts₀ where

variable [Facts]
-- ==== Proof.CopyRegion.lean ====
/-
  The pallas_call of this program copies one array. Its grid has a single point, and both of its windows
  — the input, staged from the array the last host operation wrote, and the output — are the whole 64 × 64
  array at block index 0. The body loads the input block, passes it through a shape cast between equal
  shapes, and stores it over the output block.

  So what the single point writes back is the input array itself, and since that one block covers every
  index of the output array, the output array after the run IS the array the host operations left for the
  region (`output_eq_input`). Nothing here depends on what the host operations compute.
-/
import proofs.«145718_g55405078119116_cont_9to1_m_71_2_alg».proof.Proof.Gen.KernelIdeal.Value
import Idealize.ShloMosaic.Lib.Pipeline.Value

noncomputable section

namespace Cert.KernelIdeal.CopyRegion

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The body's one load and one store go through the rectangle at offsets (0, 0). -/
theorem zero_offsets : (![0, 0] : Fin 2 → Nat) = fun _ => 0 := funext fun a => by fin_cases a <;> rfl

/-- The value the body stores is the value it loaded: a shape cast from 64 × 64 to 64 × 64 moves nothing. -/
theorem stored_eq_loaded (x : Vec F S64x64 .f32) : k0_pay1 x = x :=
  (Value.lay1_0_eq x).trans (shapeCast_self x shapeCasts_S64x64_S64x64)

/-- At the grid's one point both windows sit at block index 0 on both axes. -/
theorem block_index_zero : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The array the region copies, as the region finds it: the result of the last host operation. -/
abbrev input (c : Dev nD) : S64x64.Idx → Elt F .f32 := V m c main_v157

/-- What the point writes back to the output array is the output window's block of the INPUT array: the body
    stores what it loaded, and the input window's block and the output window's block are the same
    rectangle (offset 0 · 64 + j on each axis). -/
theorem flushed_eq_input (c : Dev nD) (t : Fin cfg0.N) :
    (dats m 0 c).flushed 1 t = ((cfg0.win 1).blk t).view.read (Elt F) (input m c) := by
  rw [Value.flushed1]
  unfold out0_1
  rw [View.canon_unit_zero zero_offsets]
  simp only [View.ld_unit_zero (S := S64x64) zero_offsets]
  rw [stored_eq_loaded]
  obtain ⟨e0, e1, e2, e3⟩ := block_index_zero t
  funext j
  show V m c main_v157 (((cfg0.win 0).blk t).view.emb j) = V m c main_v157 (((cfg0.win 1).blk t).view.emb j)
  refine congrArg _ ?_
  funext a; apply Fin.ext
  match a with
  | ⟨0, _⟩ => show win0_0.index t (0 : Fin 2) * 64 + 1 * (j 0).val = win0_1.index t (0 : Fin 2) * 64 + 1 * (j 0).val; omega
  | ⟨1, _⟩ => show win0_0.index t (1 : Fin 2) * 64 + 1 * (j 1).val = win0_1.index t (1 : Fin 2) * 64 + 1 * (j 1).val; omega

/-- An index of the output array lies in the point's block iff each coordinate lies in the block's range. -/
theorem mem_output_block (t : Fin cfg0.N) (i : S64x64.Idx) :
    i ∈ ((cfg0.win 1).blk t).view.set ↔ ∀ a : Fin 2, win0_1.index t a * S64x64.size a ≤ (i a).val ∧ (i a).val < win0_1.index t a * S64x64.size a + S64x64.size a := by
  show i ∈ ((View.whole main_v158).slice (win0_1.rect t)).set ↔ _
  rw [View.set_slice_whole, Rect.mem_set_unit]
  exact Iff.rfl

/-- The one block covers the whole output array: every index has both coordinates in [0, 64). -/
theorem output_covered (i : S64x64.Idx) :
    ∃ t : Fin cfg0.N, (cfg0.win 1).flush t = true ∧ i ∈ ((cfg0.win 1).blk t).view.set := by
  refine ⟨t0_0, flush0_1 t0_0, ?_⟩
  rw [mem_output_block]
  obtain ⟨e0, e1, e2, e3⟩ := block_index_zero t0_0
  have h0 : (i 0).val < 64 := (i 0).isLt
  have h1 : (i 1).val < 64 := (i 1).isLt
  intro a
  match a with
  | ⟨0, _⟩ => show win0_1.index t0_0 (0 : Fin 2) * 64 ≤ (i 0).val ∧ (i 0).val < win0_1.index t0_0 (0 : Fin 2) * 64 + 64; omega
  | ⟨1, _⟩ => show win0_1.index t0_0 (1 : Fin 2) * 64 ≤ (i 1).val ∧ (i 1).val < win0_1.index t0_0 (1 : Fin 2) * 64 + 64; omega

/-- THE OUTPUT ARRAY after the run is the input array as the region found it. -/
theorem output_eq_input (c : Dev nD) : (dats m 0 c).arrAt 1 cfg0.N = input m c :=
  (dats m 0 c).arrAt_eq_of_cover 1 _ (fun t _ => flushed_eq_input m c t) output_covered

end Cert.KernelIdeal.CopyRegion

end
-- ==== Proof.HostChain.lean ====
/-
  Before its one pallas_call the kernel's program runs, on the host, exactly the reference's operations:
  the three dense layers, the two normalised graph convolutions (degree by scatter-add, inverse square
  root, gather of both endpoints, scatter-add of the messages), the mean pooling over graphs and the two
  final layers — the same StableHLO operations in the same order over the same dimension records and
  the same literals. Only the names of the buffers' signature differ between the two programs.

  So the array the region finds in the last host buffer — the fold of the kernel program's host operations
  over its launch contents, read at that buffer — is the fold of the reference's operations over ITS launch
  contents, read at its result buffer, whenever the two launch contents agree on the thirteen arguments:
  once each fold is read back as the composed term of the arguments, and the reference's arguments are
  replaced by the kernel's, the two terms are the same tree of operations, node for node
  (`input_eq_reference`). No property of any operation is used: the equality is between two spellings of
  one function of the arguments, not between two functions.

  One operation needs a word. The edge lists with the self-loops appended are concatenations of two
  vectors, and `concatenate` takes its operands inside a list of (shape, vector) pairs with a side condition
  stated over that list; read back, an operand under it would stay the unevaluated fold. `concat2` is the
  same concatenation with the two vectors as plain arguments, so that they are read back like any other
  operand; it is `concatenate` by definition.
-/
import proofs.«145718_g55405078119116_cont_9to1_m_71_2_alg».proof.Proof.Gen.KernelIdeal.Frame
import proofs.«145718_g55405078119116_cont_9to1_m_71_2_alg».proof.Proof.ReferenceRun
import Idealize.ShloMosaic.Lib.StableHlo.Run

noncomputable section

namespace Cert.KernelIdeal.HostChain

open Idealize.ShloMosaic Idealize.ShloMosaic.TcCoe Idealize.SL.Sem Idealize.ShloMosaic.StableHlo
open Cert.KernelIdeal.Gen

/-- The concatenation of two vectors along axis `a`, the vectors as arguments of their own. -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A concatenation of a two-element list of vectors is `concat2` of the two. -/
theorem concatenate_pair {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = concat2 t a s₁ s₂ h x y := rfl

variable {F : FTy → Type} [FloatOps F]

set_option maxRecDepth 16384 in
set_option maxHeartbeats 164800000 in
/-- The array the copy region reads — the kernel program's last host buffer, after all the host operations
    before the region — is the reference's result, when the two programs' argument arrays agree. -/
theorem input_eq_reference
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (after Cert.ReferenceIdeal.ValueP.ops (launchContents m' c) (Proc.devRef .tc Cert.ReferenceIdeal.main_v157) : Cert.ReferenceIdeal.S64x64.Idx → Elt F .f32)
      = (V m c Cert.KernelIdeal.main_v157 : Cert.KernelIdeal.S64x64.Idx → Elt F .f32) := by
  have e0 : launchContents m' c (Proc.devRef .tc Cert.ReferenceIdeal.main_arg0) = m (c, Proc.devRef .tc Cert.KernelIdeal.main_arg0) := h0
  have e1 : launchContents m' c (Proc.devRef .tc Cert.ReferenceIdeal.main_arg1) = m (c, Proc.devRef .tc Cert.KernelIdeal.main_arg1) := h1
  have e2 : launchContents m' c (Proc.devRef .tc Cert.ReferenceIdeal.main_arg2) = m (c, Proc.devRef .tc Cert.KernelIdeal.main_arg2) := h2
  have e3 : launchContents m' c (Proc.devRef .tc Cert.ReferenceIdeal.main_arg3) = m (c, Proc.devRef .tc Cert.KernelIdeal.main_arg3) := h3
  have e4 : launchContents m' c (Proc.devRef .tc Cert.ReferenceIdeal.main_arg4) = m (c, Proc.devRef .tc Cert.KernelIdeal.main_arg4) := h4
  have e5 : launchContents m' c (Proc.devRef .tc Cert.ReferenceIdeal.main_arg5) = m (c, Proc.devRef .tc Cert.KernelIdeal.main_arg5) := h5
  have e6 : launchContents m' c (Proc.devRef .tc Cert.ReferenceIdeal.main_arg6) = m (c, Proc.devRef .tc Cert.KernelIdeal.main_arg6) := h6
  have e7 : launchContents m' c (Proc.devRef .tc Cert.ReferenceIdeal.main_arg7) = m (c, Proc.devRef .tc Cert.KernelIdeal.main_arg7) := h7
  have e8 : launchContents m' c (Proc.devRef .tc Cert.ReferenceIdeal.main_arg8) = m (c, Proc.devRef .tc Cert.KernelIdeal.main_arg8) := h8
  have e9 : launchContents m' c (Proc.devRef .tc Cert.ReferenceIdeal.main_arg9) = m (c, Proc.devRef .tc Cert.KernelIdeal.main_arg9) := h9
  have e10 : launchContents m' c (Proc.devRef .tc Cert.ReferenceIdeal.main_arg10) = m (c, Proc.devRef .tc Cert.KernelIdeal.main_arg10) := h10
  have e11 : launchContents m' c (Proc.devRef .tc Cert.ReferenceIdeal.main_arg11) = m (c, Proc.devRef .tc Cert.KernelIdeal.main_arg11) := h11
  have e12 : launchContents m' c (Proc.devRef .tc Cert.ReferenceIdeal.main_arg12) = m (c, Proc.devRef .tc Cert.KernelIdeal.main_arg12) := h12
  dsimp only [V]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    concatenate_pair, e0, e1, e2, e3, e4, e5, e6, e7, e8, e9, e10, e11, e12]
  rfl

end Cert.KernelIdeal.HostChain

end
-- ==== Proof.lean ====
/-
  The claim: a graph network on 10000 nodes and 320000 edges — a dense layer with a leaky ReLU, two graph
  convolutions D^(-1/2) (A + I) D^(-1/2) (x W) + b each followed by a leaky ReLU, a mean over each of 64
  graphs, and two more dense layers — computed by the kernel's program and by the reference, gives equal
  64 × 64 results on the extended reals whenever the two programs start from equal arguments.

  The kernel's program does ALL of that arithmetic on the host, with the reference's own operations, and
  then passes the 64 × 64 result through a pallas_call that copies it. The proof therefore has two parts:
  the copy leaves in its output array the array it was given (Proof/CopyRegion.lean), and the array it was
  given is the reference's result for the same arguments, the two programs' host operations being the
  same tree of operations (Proof/HostChain.lean; the reference's run itself is Proof/ReferenceRun.lean). No algebraic law is needed, so the precondition (finite
  inputs) is never opened. The idealization rewrote nothing, so the kernel's idealized program is its own
  text read on the extended reals, and that claim is `True`.

  The three frame claims are the generated frame runs: of the word-level kernel, of the idealized kernel, and
  — the reference having no pallas_call — the reference's run with its result forgotten.
-/
import proofs.«145718_g55405078119116_cont_9to1_m_71_2_alg».proof.Defs
import proofs.«145718_g55405078119116_cont_9to1_m_71_2_alg».proof.Proof.Gen.Kernel
import proofs.«145718_g55405078119116_cont_9to1_m_71_2_alg».proof.Proof.Gen.Kernel.Skeleton
import proofs.«145718_g55405078119116_cont_9to1_m_71_2_alg».proof.Proof.Gen.Kernel.Launch
import proofs.«145718_g55405078119116_cont_9to1_m_71_2_alg».proof.Proof.Gen.Kernel.Points
import proofs.«145718_g55405078119116_cont_9to1_m_71_2_alg».proof.Proof.Gen.Kernel.Frame
import proofs.«145718_g55405078119116_cont_9to1_m_71_2_alg».proof.Proof.Gen.KernelIdeal
import proofs.«145718_g55405078119116_cont_9to1_m_71_2_alg».proof.Proof.Gen.KernelIdeal.Skeleton
import proofs.«145718_g55405078119116_cont_9to1_m_71_2_alg».proof.Proof.Gen.KernelIdeal.Launch
import proofs.«145718_g55405078119116_cont_9to1_m_71_2_alg».proof.Proof.Gen.KernelIdeal.Points
import proofs.«145718_g55405078119116_cont_9to1_m_71_2_alg».proof.Proof.Gen.KernelIdeal.Frame
import proofs.«145718_g55405078119116_cont_9to1_m_71_2_alg».proof.Proof.Gen.ReferenceIdeal
import proofs.«145718_g55405078119116_cont_9to1_m_71_2_alg».proof.Proof.Gen.Pre_finite_inputs
import proofs.«145718_g55405078119116_cont_9to1_m_71_2_alg».proof.Proof.Gen.KernelIdeal.Value
import proofs.«145718_g55405078119116_cont_9to1_m_71_2_alg».proof.Proof.CopyRegion
import proofs.«145718_g55405078119116_cont_9to1_m_71_2_alg».proof.Proof.ReferenceRun
import proofs.«145718_g55405078119116_cont_9to1_m_71_2_alg».proof.Proof.HostChain
import Idealize.ShloMosaic.Adequacy
import Idealize.ShloMosaic.Init

noncomputable section

namespace Cert.Proof

open Idealize.ShloMosaic Idealize.SL.Sem Cert.Kernel

/-- The word-level kernel program runs and leaves its arguments as they were. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is a host program: its run, with what it says about the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealization changed no operation. -/
theorem preserves : Cert.preserves_Kernel_KernelIdeal := trivial

/-- Both programs end with the reference's result term of the (equal) arguments: the kernel's output array
    is what its copy region was given, and that is the reference's term. -/
theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  exact (Cert.KernelIdeal.HostChain.input_eq_reference m m' c h0 h1 h2 h3 h4 h5 h6 h7 h8 h9 h10 h11 h12).trans
    (Cert.KernelIdeal.CopyRegion.output_eq_input m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
